-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S2048x2048 : Shape := ⟨2, ![2048, 2048]⟩
abbrev S2048x1024 : Shape := ⟨2, ![2048, 1024]⟩
abbrev S2048 : Shape := ⟨1, ![2048]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg4 : FVec F S2048x1024 .f32) (main_arg5 : FVec F S2048 .f32) (main_arg6 : FVec F S2048x1024 .f32) (main_arg7 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_v33

def fn {F : FTy → Type} [FloatOps F] (main_arg0 : FVec F S4x2048x1024 .f32) (main_arg1 : FVec F S4x2048x1024 .f32) (main_arg2 : FVec F S4x2048x1024 .f32) (main_arg3 : FVec F S2048x2048 .f32) (main_arg4 : FVec F S2048x1024 .f32) (main_arg5 : FVec F S2048 .f32) (main_arg6 : FVec F S2048x1024 .f32) (main_arg7 : FVec F S2048 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_v13 main_v16
-- ==== Kernel.lean ====
abbrev S4x2048x1024 : Shape := ⟨3, ![4, 2048, 1024]⟩
abbrev S2048x2048 : Shape := ⟨2, ![2048, 2048]⟩
abbrev S2048x1024 : Shape := ⟨2, ![2048, 1024]⟩
abbrev S2048 : Shape := ⟨1, ![2048]⟩
abbrev S1024x2048 : Shape := ⟨2, ![1024, 2048]⟩
abbrev S1x2048 : Shape := ⟨2, ![1, 2048]⟩
abbrev S1x256x1024 : Shape := ⟨3, ![1, 256, 1024]⟩
abbrev S1x2048x1024 : Shape := ⟨3, ![1, 2048, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S2048x2048, .f32⟩
  | .hbm, ⟨4, _⟩ => ⟨S2048x1024, .f32⟩
  | .hbm, ⟨5, _⟩ => ⟨S2048, .f32⟩
  | .hbm, ⟨6, _⟩ => ⟨S2048x1024, .f32⟩
  | .hbm, ⟨7, _⟩ => ⟨S2048, .f32⟩
  | .hbm, ⟨8, _⟩ => ⟨S1024x2048, .f32⟩
  | .hbm, ⟨9, _⟩ => ⟨S1024x2048, .bf16⟩
  | .hbm, ⟨10, _⟩ => ⟨S1024x2048, .f32⟩
  | .hbm, ⟨11, _⟩ => ⟨S1024x2048, .bf16⟩
  | .hbm, ⟨12, _⟩ => ⟨S2048x2048, .bf16⟩
  | .hbm, ⟨13, _⟩ => ⟨S2048, .f32⟩
  | .hbm, ⟨14, _⟩ => ⟨S1x2048, .f32⟩
  | .hbm, ⟨15, _⟩ => ⟨S4x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S2048x2048, .bf16⟩
  | .local _ .vmem, ⟨5, _⟩ => ⟨S1x2048, .f32⟩
  | .local _ .vmem, ⟨6, _⟩ => ⟨S1x2048x1024, .f32⟩
  | .local _ .vmem, ⟨7, _⟩ => ⟨S256x2048, .f32⟩
  | .local _ .vmem, ⟨8, _⟩ => ⟨S256x2048, .f32⟩
  | .local _ .vmem, ⟨9, _⟩ => ⟨S1x256x1024, .f32⟩
  | .local _ .vmem, ⟨10, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S2048x1024_S1024x2048_1_0 : S2048x1024.Transposes [1, 0] S1024x2048
  bitsLt_bf16_f32 : FTy.bits .bf16 < FTy.bits .f32
  concatenates_S1024x2048_S1024x2048_S2048x2048_d0 : Shape.Concatenates [S1024x2048, S1024x2048] S2048x2048 0
  shapeCasts_S2048_S1x2048 : S2048.ShapeCasts S1x2048
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  concatenates_S256x1024_S256x1024_S256x2048_d1 : Shape.Concatenates [S256x1024, S256x1024] S256x2048 1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  broadcasts_S256x1_S256x2048 : S256x1.Broadcasts S256x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S256x1024_S1x256x1024 : S256x1024.ShapeCasts S1x256x1024
  dot_S256x2048_S2048x2048_S256x2048_1_0_0_1_n_n_wf : DotDims.WF S256x2048 S2048x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x2048x1024.size a
  hwx0_0 : ∀ i : grid0.Coords, EltTy.bits .f32 = 32 ∨ (Rect.block (s := S4x2048x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S4x2048x1024.size a
  hwx0_1 : ∀ i : grid0.Coords, EltTy.bits .f32 = 32 ∨ (Rect.block (s := S4x2048x1024) S1x256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048x1024.size a ≤ S4x2048x1024.size a
  hwx0_4 : ∀ i : grid0.Coords, EltTy.bits .f32 = 32 ∨ (Rect.block (s := S4x2048x1024) S1x2048x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S2048x2048.size a
  hwx0_5 : ∀ i : grid0.Coords, EltTy.bits .f32 = 32 ∨ (Rect.block (s := S2048x2048) S256x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S4x2048x1024.size a
  hwx0_6 : ∀ i : grid0.Coords, EltTy.bits .f32 = 32 ∨ (Rect.block (s := S4x2048x1024) S1x256x1024.size (cc0_transform_6 i) (hinb0_6 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x2048x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S2048x2048 : Shape := ⟨2, ![2048, 2048]⟩
abbrev S2048x1024 : Shape := ⟨2, ![2048, 1024]⟩
abbrev S2048 : Shape := ⟨1, ![2048]⟩
abbrev S4x2048x2048 : Shape := ⟨3, ![4, 2048, 2048]⟩
abbrev S1x1x2048 : Shape := ⟨3, ![1, 1, 2048]⟩
abbrev S1x2048x2048 : Shape := ⟨3, ![1, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S2048x2048, .f32⟩
  | .hbm, ⟨4, _⟩ => ⟨S2048x1024, .f32⟩
  | .hbm, ⟨5, _⟩ => ⟨S2048, .f32⟩
  | .hbm, ⟨6, _⟩ => ⟨S2048x1024, .f32⟩
  | .hbm, ⟨7, _⟩ => ⟨S2048, .f32⟩
  | .hbm, ⟨8, _⟩ => ⟨S4x2048x2048, .f32⟩
  | .hbm, ⟨9, _⟩ => ⟨S1x1x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S1x1x2048, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S1x2048x2048, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S_, .f32⟩
  | .hbm, ⟨24, _⟩ => ⟨S4x2048, .f32⟩
  | .hbm, ⟨25, _⟩ => ⟨S4x2048, .f32⟩
  | .hbm, ⟨26, _⟩ => ⟨S4x2048x1, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048, .f32⟩
  | .hbm, ⟨32, _⟩ => ⟨S4x2048x1, .f32⟩
  | .hbm, ⟨33, _⟩ => ⟨S4x2048x2048, .f32⟩
  | .hbm, ⟨34, _⟩ => ⟨S4x2048x2048, .f32⟩
  | .hbm, ⟨35, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S2048x1024_S4x2048x2048_2_1_01_0_n_n_wf : DotDims.WF S4x2048x1024 S2048x1024 S4x2048x2048 [2] [1] [0, 1] [0] [] []
  dot_S4x2048x2048_S4x2048x1024_S4x2048x1024_2_1_1_2_0_0_wf : DotDims.WF S4x2048x2048 S4x2048x1024 S4x2048x1024 [2] [1] [1] [2] [0] [0]

variable [Facts₀]

def dot_S4x2048x1024_S2048x1024_S4x2048x2048_2_1_01_0_n_n : DotDims S4x2048x1024 S2048x1024 S4x2048x2048 where
  lhsContracting := [2]
  rhsContracting := [1]
  lhsNonContracting := [0, 1]
  rhsNonContracting := [0]
  lhsBatch := []
  rhsBatch := []
  wf := dot_S4x2048x1024_S2048x1024_S4x2048x2048_2_1_01_0_n_n_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Attention.lean ====
/-
  Additive attention, row by row, on the extended reals.

  For one query position the scores over the context positions c are

      energy c = tanh ((sum over e of q e * Wq c e + bq c) + (sum over e of k e * Wk c e + bk c)) + mask c,

  the attention weights are their softmax, exp (energy c - M) divided by the sum over c' of exp (energy c' - M) with
  M the largest score, and the output entry is the weighted sum over c of weight c * value c. The softmax step is
  stated once, for any row of scores and any column of values (rowAttend): it depends on the scores and the values
  only, so equal scores and equal values give equal outputs.

  Two ways of writing the score are identified here. The two projections may be computed as ONE contraction over
  2048 = 1024 + 1024 indices, the query's entries followed by the key's against the two weight matrices stacked the
  same way, with the two biases added beforehand. A sum over 1024 + 1024 indices is the sum over the first 1024 plus
  the sum over the last 1024, and four summands regroup, (A + B) + (x + y) = (A + x) + (B + y), by commutativity and
  associativity of addition alone: both hold on the extended reals at the infinities too, so nothing here asks
  the entries to be finite.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The value a row maximum starts from: the extended real that the pattern of minus infinity denotes. The laws below
    hold for any starting value. -/
def lowest : EReal := Ideal.ofBits .f32 0xFF800000#32

/-- The largest entry of a row, as the fold of max from a starting value. -/
def rowMax {C : ℕ} (lo : EReal) (en : Fin C → EReal) : EReal := (Finset.univ : Finset (Fin C)).fold max lo en

/-- The maximum of the starting value and the row maximum is the row maximum: the fold already lies above the value
    it starts from. -/
theorem max_rowMax {C : ℕ} (lo : EReal) (en : Fin C → EReal) : max lo (rowMax lo en) = rowMax lo en :=
  max_eq_right ((Finset.le_fold_max lo).mpr (Or.inl le_rfl))

/-- Softmax-weighted sum along a row: the weights exp (en c - M) / (sum over c' of exp (en c' - M)), M the row
    maximum, against the values val c. -/
def rowAttend {C : ℕ} (lo : EReal) (en val : Fin C → EReal) : EReal :=
  ∑ c : Fin C, Ideal.div (Ideal.exp (en c - rowMax lo en)) (∑ c' : Fin C, Ideal.exp (en c' - rowMax lo en)) * val c

/-- Two rows of equal scores and equal values give the same weighted sum. -/
theorem rowAttend_congr {C : ℕ} (lo : EReal) {en en' val val' : Fin C → EReal} (he : ∀ c, en c = en' c) (hv : ∀ c, val c = val' c) :
    rowAttend lo en val = rowAttend lo en' val' := by
  rw [funext he, funext hv]

/-- A sum over 2048 = 1024 + 1024 indices is the sum over the first half plus the sum over the second half. -/
theorem sum_halves (f : Fin 2048 → EReal) (g h : Fin 1024 → EReal)
    (hg : ∀ e : Fin 1024, f ⟨e.val, by omega⟩ = g e) (hh : ∀ e : Fin 1024, f ⟨1024 + e.val, by omega⟩ = h e) :
    ∑ j : Fin 2048, f j = ∑ e : Fin 1024, g e + ∑ e : Fin 1024, h e := by
  show ∑ j : Fin (1024 + 1024), f j = _
  rw [Fin.sum_univ_add]
  exact congrArg₂ (· + ·) (Finset.sum_congr rfl fun e _ => hg e) (Finset.sum_congr rfl fun e _ => hh e)

/-- The score at batch b, query position s, context position c. -/
def energy (q k : (⟨3, ![4, 2048, 1024]⟩ : Shape).Idx → EReal) (mask : (⟨2, ![2048, 2048]⟩ : Shape).Idx → EReal)
    (Wq : (⟨2, ![2048, 1024]⟩ : Shape).Idx → EReal) (bq : (⟨1, ![2048]⟩ : Shape).Idx → EReal)
    (Wk : (⟨2, ![2048, 1024]⟩ : Shape).Idx → EReal) (bk : (⟨1, ![2048]⟩ : Shape).Idx → EReal)
    (b : Fin 4) (s : Fin 2048) (c : Fin 2048) : EReal :=
  Ideal.tanh (((∑ e : Fin 1024, q (ix3 b s e) * Wq (ix2 c e)) + bq (ix1 c))
      + ((∑ e : Fin 1024, k (ix3 b s e) * Wk (ix2 c e)) + bk (ix1 c))) + mask (ix2 s c)

/-- The attention output as one function of the eight arrays: at (b, s, e) the softmax-weighted sum, over the context
    positions c, of v (b, c, e) under the scores of (b, s). -/
def attend (q k v : (⟨3, ![4, 2048, 1024]⟩ : Shape).Idx → EReal) (mask : (⟨2, ![2048, 2048]⟩ : Shape).Idx → EReal)
    (Wq : (⟨2, ![2048, 1024]⟩ : Shape).Idx → EReal) (bq : (⟨1, ![2048]⟩ : Shape).Idx → EReal)
    (Wk : (⟨2, ![2048, 1024]⟩ : Shape).Idx → EReal) (bk : (⟨1, ![2048]⟩ : Shape).Idx → EReal) :
    (⟨3, ![4, 2048, 1024]⟩ : Shape).Idx → EReal := fun i =>
  rowAttend lowest (energy q k mask Wq bq Wk bk (i 0) (i 1)) (fun c => v (ix3 (i 0) c (i 2)))

/-- The output at an index given by its coordinates. -/
theorem attend_ix3 (q k v : (⟨3, ![4, 2048, 1024]⟩ : Shape).Idx → EReal) (mask : (⟨2, ![2048, 2048]⟩ : Shape).Idx → EReal)
    (Wq : (⟨2, ![2048, 1024]⟩ : Shape).Idx → EReal) (bq : (⟨1, ![2048]⟩ : Shape).Idx → EReal)
    (Wk : (⟨2, ![2048, 1024]⟩ : Shape).Idx → EReal) (bk : (⟨1, ![2048]⟩ : Shape).Idx → EReal)
    (b : Fin 4) (s : Fin 2048) (e : Fin 1024) :
    attend q k v mask Wq bq Wk bk (ix3 b s e)
      = rowAttend lowest (energy q k mask Wq bq Wk bk b s) (fun c => v (ix3 b c e)) := rfl

/-- The fused spelling of the score: ONE contraction over 2048 indices, whose first 1024 terms are the query's
    products and whose last 1024 the key's, plus the two biases added beforehand, is the score. -/
theorem energy_fused (q k : (⟨3, ![4, 2048, 1024]⟩ : Shape).Idx → EReal) (mask : (⟨2, ![2048, 2048]⟩ : Shape).Idx → EReal)
    (Wq : (⟨2, ![2048, 1024]⟩ : Shape).Idx → EReal) (bq : (⟨1, ![2048]⟩ : Shape).Idx → EReal)
    (Wk : (⟨2, ![2048, 1024]⟩ : Shape).Idx → EReal) (bk : (⟨1, ![2048]⟩ : Shape).Idx → EReal)
    (b : Fin 4) (s : Fin 2048) (c : Fin 2048) (f : Fin 2048 → EReal) (bias mk : EReal)
    (hq : ∀ e : Fin 1024, f ⟨e.val, by omega⟩ = q (ix3 b s e) * Wq (ix2 c e))
    (hk : ∀ e : Fin 1024, f ⟨1024 + e.val, by omega⟩ = k (ix3 b s e) * Wk (ix2 c e))
    (hb : bias = bq (ix1 c) + bk (ix1 c)) (hm : mk = mask (ix2 s c)) :
    Ideal.tanh ((∑ j : Fin 2048, f j) + bias) + mk = energy q k mask Wq bq Wk bk b s c := by
  subst hb hm
  unfold energy
  rw [sum_halves f _ _ hq hk, add_add_add_comm]

end Cert.Attn

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.LibColBroadcast.lean ====
/-
  A column broadcast along the second axis, and a vector read as a column, at an index given by coordinates.

  A column, an array of shape [a, 1], broadcast along the second axis to [a, b] repeats the column in every one of
  the b columns: at (r, j) it reads the column's entry r, whatever j is. A vector of a entries reshaped to a
  column [a, 1] keeps its entries in order: the column reads, at (r, u), entry r of the vector. (The companions of
  the row forms: [1, b] broadcast to [a, b], and a vector [b] read as a row [1, b].)
-/
import Idealize.ShloMosaic.Lib.Pipeline.Value
import Idealize.ShloMosaic.Lib.ValueIdx

noncomputable section

namespace Cert.ColBroadcast

open Idealize.ShloMosaic Idealize.ShloMosaic.ValueIdx

/-- A column `[a, 1]` broadcast along the second axis to `[a, b]` reads, at `(r, j)`, the column's entry `r`. -/
theorem broadcastTo_a1_ab_apply {α : Type} {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- A vector of a entries cast to a column [a, 1] reads, at (r, u), entry r: the two indices have the same
    row-major position. -/
theorem shapeCast_col_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by have := u.isLt; omega
    rw [Shape.rowMajor_val_two, Shape.rowMajor_val_one]
    show r.val = r.val * 1 + u.val
    rw [hu]; omega)

end Cert.ColBroadcast

end
-- ==== Proof.LibConcatPair.lean ====
/-
  Two matrices joined side by side, or one on top of the other, read at an index given by coordinates.

  Joining a : [m, n1] and b : [m, n2] along the second axis gives a matrix of n = n1 + n2 columns whose first n1
  columns are a's and whose last n2 are b's: at (p, e) with e < n1 it reads a (p, e), and at (p, n1 + e) it reads
  b (p, e). Joining a : [m1, n] and b : [m2, n] along the first axis stacks the rows the same way: row e < m1 is
  a's row e, row m1 + e is b's row e. The joined extent is a variable of its own, so that the statements apply
  where it is written as one number.
-/
import Idealize.ShloMosaic.Lib.Pipeline.Value
import Idealize.ShloMosaic.Lib.ValueIdx

noncomputable section

namespace Cert.ConcatPair

open Idealize.ShloMosaic Idealize.ShloMosaic.ValueIdx

/-- Side by side, a column of the left part. -/
theorem concat_cols_left {α : Type} {m n1 n2 n : ℕ} (a : (⟨2, ![m, n1]⟩ : Shape).Idx → α) (b : (⟨2, ![m, n2]⟩ : Shape).Idx → α)
    (h : Shape.Concatenates [(⟨2, ![m, n1]⟩ : Shape), ⟨2, ![m, n2]⟩] ⟨2, ![m, n]⟩ 1) (p : Fin m) (e : Fin n1) (he : e.val < n) :
    concatenate ⟨2, ![m, n]⟩ 1 [⟨⟨2, ![m, n1]⟩, a⟩, ⟨⟨2, ![m, n2]⟩, b⟩] h (ix2 p ⟨e.val, he⟩) = a (ix2 p e) :=
  concatenate_pair_apply_left 1 a b h (ix2 p ⟨e.val, he⟩) rfl (ix2 p e)
    (fun ax => match ax with | ⟨0, _⟩ => rfl | ⟨1, _⟩ => rfl)

/-- Side by side, a column of the right part. -/
theorem concat_cols_right {α : Type} {m n1 n2 n : ℕ} (a : (⟨2, ![m, n1]⟩ : Shape).Idx → α) (b : (⟨2, ![m, n2]⟩ : Shape).Idx → α)
    (h : Shape.Concatenates [(⟨2, ![m, n1]⟩ : Shape), ⟨2, ![m, n2]⟩] ⟨2, ![m, n]⟩ 1) (p : Fin m) (e : Fin n2) (he : n1 + e.val < n) :
    concatenate ⟨2, ![m, n]⟩ 1 [⟨⟨2, ![m, n1]⟩, a⟩, ⟨⟨2, ![m, n2]⟩, b⟩] h (ix2 p ⟨n1 + e.val, he⟩) = b (ix2 p e) :=
  concatenate_pair_apply_right 1 a b h (ix2 p ⟨n1 + e.val, he⟩) rfl rfl (ix2 p e)
    (fun ax hne => match ax, hne with
      | ⟨0, _⟩, _ => rfl
      | ⟨1, _⟩, hne => (hne (Fin.ext rfl)).elim)
    (by show e.val + n1 = n1 + e.val; omega)

/-- One on top of the other, a row of the upper part. -/
theorem concat_rows_upper {α : Type} {m1 m2 m n : ℕ} (a : (⟨2, ![m1, n]⟩ : Shape).Idx → α) (b : (⟨2, ![m2, n]⟩ : Shape).Idx → α)
    (h : Shape.Concatenates [(⟨2, ![m1, n]⟩ : Shape), ⟨2, ![m2, n]⟩] ⟨2, ![m, n]⟩ 0) (e : Fin m1) (q : Fin n) (he : e.val < m) :
    concatenate ⟨2, ![m, n]⟩ 0 [⟨⟨2, ![m1, n]⟩, a⟩, ⟨⟨2, ![m2, n]⟩, b⟩] h (ix2 ⟨e.val, he⟩ q) = a (ix2 e q) :=
  concatenate_pair_apply_left 0 a b h (ix2 ⟨e.val, he⟩ q) rfl (ix2 e q)
    (fun ax => match ax with | ⟨0, _⟩ => rfl | ⟨1, _⟩ => rfl)

/-- One on top of the other, a row of the lower part. -/
theorem concat_rows_lower {α : Type} {m1 m2 m n : ℕ} (a : (⟨2, ![m1, n]⟩ : Shape).Idx → α) (b : (⟨2, ![m2, n]⟩ : Shape).Idx → α)
    (h : Shape.Concatenates [(⟨2, ![m1, n]⟩ : Shape), ⟨2, ![m2, n]⟩] ⟨2, ![m, n]⟩ 0) (e : Fin m2) (q : Fin n) (he : m1 + e.val < m) :
    concatenate ⟨2, ![m, n]⟩ 0 [⟨⟨2, ![m1, n]⟩, a⟩, ⟨⟨2, ![m2, n]⟩, b⟩] h (ix2 ⟨m1 + e.val, he⟩ q) = b (ix2 e q) :=
  concatenate_pair_apply_right 0 a b h (ix2 ⟨m1 + e.val, he⟩ q) rfl rfl (ix2 e q)
    (fun ax hne => match ax, hne with
      | ⟨0, _⟩, hne => (hne (Fin.ext rfl)).elim
      | ⟨1, _⟩, _ => rfl)
    (by show e.val + m1 = m1 + e.val; omega)

end Cert.ConcatPair

end
-- ==== Proof.Tile.lean ====
/-
  The kernel's body on one tile, read at an index.

  At a grid point the body holds a tile of 256 query rows (x0) and the matching 256 key rows (x1), the stacked
  weights (x2, 2048 x 2048: the query weights' transpose on top of the key weights' transpose), the summed bias as a row
  (x3), the mask's 256 rows (x5) and the batch's values (x4, 2048 x 1024). It joins each query row with its key row into
  one row of 2048 entries, multiplies by the stacked weights, adds the bias row, applies tanh and adds the mask: the
  tile's energies. Along each row it takes the maximum, exponentiates the differences, sums them and divides: the
  weights. The stored tile is the weights times the values.

  The stages are named here one by one, and each is read at an index: a matrix product as the sum over the contracted
  index, a row maximum as the fold of max over the row, a row sum as the sum over the row, a column of row results
  repeated along the rows as the row's result. A change of float format is the identity on the extended reals.
-/
import proofs.«180164_j28449863369044_2_alg».proof.Proof.Gen.KernelIdeal.Skeleton
import proofs.«180164_j28449863369044_2_alg».proof.Proof.Attention
import proofs.«180164_j28449863369044_2_alg».proof.Proof.LibDotRows
import proofs.«180164_j28449863369044_2_alg».proof.Proof.LibRowBroadcast
import proofs.«180164_j28449863369044_2_alg».proof.Proof.LibColBroadcast
import proofs.«180164_j28449863369044_2_alg».proof.Proof.LibConcatPair
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen
open Idealize.ShloMosaic Idealize.ShloMosaic.ValueIdx Cert.Hand

/-! ## One operation at a time -/

/-- Position k of row p of a [256, 2048] tile is the index (p, k). -/
theorem lift_row (p : Fin 256) (k : Fin 2048) : reduces_S256x2048_S256.lift (ix1 p) k = ix2 p k :=
  funext fun a => Fin.ext (by match a with | ⟨0, _⟩ => rfl | ⟨1, _⟩ => rfl)

/-- The first product: entry (p, q) is the sum over k of left (p, k) * right (k, q). -/
theorem scoreProduct_ix {φ₁ φ₂ : FTy} (l : FVec Ideal S256x2048 φ₁) (r : FVec Ideal S2048x2048 φ₂) (p : Fin 256) (q : Fin 2048) :
    matmul (F := Ideal) dot_S256x2048_S2048x2048_S256x2048_1_0_0_1_n_n none l r (constant (F := Ideal) S256x2048 .f32 0x00000000#32) (ix2 p q)
      = ∑ k : Fin 2048, l (ix2 p k) * r (ix2 k q) := by
  refine (Ideal.matmul_constant_zero_apply dot_S256x2048_S2048x2048_S256x2048_1_0_0_1_n_n none l r (ix2 p q)).trans ?_
  dot_rows dot_S256x2048_S2048x2048_S256x2048_1_0_0_1_n_n S256x2048 S2048x2048 2048

/-- The second product: entry (p, q) is the sum over k of left (p, k) * right (k, q). -/
theorem valueProduct_ix {φ₁ φ₂ : FTy} (l : FVec Ideal S256x2048 φ₁) (r : FVec Ideal S2048x1024 φ₂) (p : Fin 256) (q : Fin 1024) :
    matmul (F := Ideal) dot_S256x2048_S2048x1024_S256x1024_1_0_0_1_n_n none l r (constant (F := Ideal) S256x1024 .f32 0x00000000#32) (ix2 p q)
      = ∑ k : Fin 2048, l (ix2 p k) * r (ix2 k q) := by
  refine (Ideal.matmul_constant_zero_apply dot_S256x2048_S2048x1024_S256x1024_1_0_0_1_n_n none l r (ix2 p q)).trans ?_
  dot_rows dot_S256x2048_S2048x1024_S256x1024_1_0_0_1_n_n S256x2048 S2048x1024 2048

/-- A row's maximum is the fold of max over the row, from the value of the starting pattern. -/
theorem rowMax_ix (src : FVec Ideal S256x2048 .f32) (p : Fin 256) :
    multiReduction (F := Ideal) .maximumf [1] S256 src 0xFF800000#32 reduces_S256x2048_S256 (.inl rfl) rfl (ix1 p)
      = Attn.rowMax Attn.lowest (fun k : Fin 2048 => src (ix2 p k)) := by
  refine (Ideal.multiReduction_maximumf_single src 0xFF800000#32 reduces_S256x2048_S256 (.inl rfl) rfl (ix1 p)).trans ?_
  have hf : (src ∘ reduces_S256x2048_S256.lift (ix1 p)) = fun k : Fin 2048 => src (ix2 p k) :=
    funext fun k => congrArg src (lift_row p k)
  rw [hf]
  rfl

/-- A row's sum is the sum over the row. -/
theorem rowSum_ix (src : FVec Ideal S256x2048 .f32) (p : Fin 256) :
    multiReduction (F := Ideal) .add [1] S256 src 0x00000000#32 reduces_S256x2048_S256 (.inl rfl) rfl (ix1 p)
      = ∑ k : Fin 2048, src (ix2 p k) := by
  refine (Ideal.multiReduction_add_single src 0x00000000#32 reduces_S256x2048_S256 (.inl rfl) rfl (ix1 p)).trans ?_
  exact Finset.sum_congr rfl fun k _ => congrArg src (lift_row p k)

/-- One result per row, written as a column and repeated along the rows, reads the row's result at every column. -/
theorem perRow_ix (x : FVec Ideal S256 .f32) (p : Fin 256) (c : Fin 2048) :
    broadcastTo S256x2048 (shapeCast S256x1 x shapeCasts_S256_S256x1) broadcasts_S256x1_S256x2048 (ix2 p c) = x (ix1 p) :=
  (ColBroadcast.broadcastTo_a1_ab_apply _ broadcasts_S256x1_S256x2048 p c).trans
    (ColBroadcast.shapeCast_col_apply x shapeCasts_S256_S256x1 p 0)

/-- The bias row repeated down the rows reads the row's entry c at every row. -/
theorem biasRow_ix (x : Vec Ideal S1x2048 .f32) (p : Fin 256) (c : Fin 2048) :
    broadcastTo S256x2048 (shapeCast S1x2048 x shapeCasts_S1x2048_S1x2048) broadcasts_S1x2048_S256x2048 (ix2 p c) = x (ix2 (0 : Fin 1) c) :=
  (RowBroadcast.broadcastTo_1b_ab_apply _ broadcasts_S1x2048_S256x2048 p c).trans
    (congrFun (shapeCast_self x shapeCasts_S1x2048_S1x2048) _)

section

variable (x0 x1 : Vec Ideal S1x256x1024 .f32) (x2 : Vec Ideal S2048x2048 .bf16) (x3 : Vec Ideal S1x2048 .f32)
  (x5 : Vec Ideal S256x2048 .f32) (x4 : Vec Ideal S1x2048x1024 .f32)

/-! ## The stages of the body -/

/-- Each query row followed by its key row. -/
def qkTile : FVec Ideal S256x2048 .bf16 :=
  concatenate S256x2048 1
    [⟨S256x1024, truncf (F := Ideal) .bf16 (shapeCast S256x1024 x0 shapeCasts_S1x256x1024_S256x1024) bitsLt_bf16_f32⟩,
     ⟨S256x1024, truncf (F := Ideal) .bf16 (shapeCast S256x1024 x1 shapeCasts_S1x256x1024_S256x1024) bitsLt_bf16_f32⟩]
    concatenates_S256x1024_S256x1024_S256x2048_d1

/-- The tile's energies. -/
def energyTile : FVec Ideal S256x2048 .f32 :=
  addf (tanh (addf
      (matmul (F := Ideal) dot_S256x2048_S2048x2048_S256x2048_1_0_0_1_n_n none (qkTile x0 x1)
        (shapeCast S2048x2048 x2 shapeCasts_S2048x2048_S2048x2048 : FVec Ideal S2048x2048 .bf16) (constant (F := Ideal) S256x2048 .f32 0x00000000#32))
      (broadcastTo S256x2048 (shapeCast S1x2048 x3 shapeCasts_S1x2048_S1x2048) broadcasts_S1x2048_S256x2048))) x5

/-- The exponentials of the energies less their row's maximum. -/
def expTile : FVec Ideal S256x2048 .f32 :=
  exp (subf (energyTile x0 x1 x2 x3 x5)
    (broadcastTo S256x2048 (shapeCast S256x1
      (multiReduction (F := Ideal) .maximumf [1] S256 (energyTile x0 x1 x2 x3 x5) 0xFF800000#32 reduces_S256x2048_S256 (.inl rfl) rfl)
      shapeCasts_S256_S256x1) broadcasts_S256x1_S256x2048))

/-- The weights: each exponential divided by its row's sum. -/
def weightTile : FVec Ideal S256x2048 .f32 :=
  divf (expTile x0 x1 x2 x3 x5)
    (broadcastTo S256x2048 (shapeCast S256x1
      (multiReduction (F := Ideal) .add [1] S256 (expTile x0 x1 x2 x3 x5) 0x00000000#32 reduces_S256x2048_S256 (.inl rfl) rfl)
      shapeCasts_S256_S256x1) broadcasts_S256x1_S256x2048)

/-- The stored tile: the weights times the values. -/
def outTile : FVec Ideal S1x256x1024 .f32 :=
  shapeCast S1x256x1024
    (matmul (F := Ideal) dot_S256x2048_S2048x1024_S256x1024_1_0_0_1_n_n none
      (truncf (F := Ideal) .bf16 (weightTile x0 x1 x2 x3 x5) bitsLt_bf16_f32)
      (truncf (F := Ideal) .bf16 (shapeCast S2048x1024 x4 shapeCasts_S1x2048x1024_S2048x1024) bitsLt_bf16_f32)
      (constant (F := Ideal) S256x1024 .f32 0x00000000#32))
    shapeCasts_S256x1024_S1x256x1024

set_option maxRecDepth 65536 in
/-- The body's stored value is the last stage: the same operations in the same order. -/
theorem payload_eq : k0_pay1 (F := Ideal) x0 x1 x2 x3 x5 x4 = outTile x0 x1 x2 x3 x5 x4 := rfl

/-! ## The stages at an index -/

/-- The first 1024 entries of a joined row are the query row's. -/
theorem qkTile_query (p : Fin 256) (e : Fin 1024) : qkTile x0 x1 (ix2 p ⟨e.val, by omega⟩) = x0 (ix3 (0 : Fin 1) p e) := by
  unfold qkTile
  refine (ConcatPair.concat_cols_left _ _ concatenates_S256x1024_S256x1024_S256x2048_d1 p e _).trans ?_
  exact shapeCast_1ab_ab_apply x0 shapeCasts_S1x256x1024_S256x1024 p e

/-- The last 1024 entries of a joined row are the key row's. -/
theorem qkTile_key (p : Fin 256) (e : Fin 1024) : qkTile x0 x1 (ix2 p ⟨1024 + e.val, by omega⟩) = x1 (ix3 (0 : Fin 1) p e) := by
  unfold qkTile
  refine (ConcatPair.concat_cols_right _ _ concatenates_S256x1024_S256x1024_S256x2048_d1 p e _).trans ?_
  exact shapeCast_1ab_ab_apply x1 shapeCasts_S1x256x1024_S256x1024 p e

/-- The energies: tanh of the joined row against column c of the stacked weights plus the bias, plus the mask. -/
theorem energyTile_ix (p : Fin 256) (c : Fin 2048) :
    energyTile x0 x1 x2 x3 x5 (ix2 p c)
      = Ideal.tanh ((∑ j : Fin 2048, qkTile x0 x1 (ix2 p j) * x2 (ix2 j c)) + x3 (ix2 (0 : Fin 1) c)) + x5 (ix2 p c) := by
  unfold energyTile
  refine congrArg₂ (· + ·) (congrArg Ideal.tanh (congrArg₂ (· + ·) ?_ (biasRow_ix x3 p c))) rfl
  refine (scoreProduct_ix (qkTile x0 x1) (shapeCast S2048x2048 x2 shapeCasts_S2048x2048_S2048x2048 : FVec Ideal S2048x2048 .bf16) p c).trans ?_
  rw [shapeCast_self]

/-- The exponentials. -/
theorem expTile_ix (p : Fin 256) (c : Fin 2048) :
    expTile x0 x1 x2 x3 x5 (ix2 p c)
      = Ideal.exp (energyTile x0 x1 x2 x3 x5 (ix2 p c) - Attn.rowMax Attn.lowest (fun k : Fin 2048 => energyTile x0 x1 x2 x3 x5 (ix2 p k))) := by
  unfold expTile
  exact congrArg Ideal.exp (congrArg (energyTile x0 x1 x2 x3 x5 (ix2 p c) - ·)
    ((perRow_ix _ p c).trans (rowMax_ix (energyTile x0 x1 x2 x3 x5) p)))

/-- The weights. -/
theorem weightTile_ix (p : Fin 256) (c : Fin 2048) :
    weightTile x0 x1 x2 x3 x5 (ix2 p c)
      = Ideal.div (expTile x0 x1 x2 x3 x5 (ix2 p c)) (∑ k : Fin 2048, expTile x0 x1 x2 x3 x5 (ix2 p k)) := by
  unfold weightTile
  exact congrArg (Ideal.div (expTile x0 x1 x2 x3 x5 (ix2 p c)))
    ((perRow_ix _ p c).trans (rowSum_ix (expTile x0 x1 x2 x3 x5) p))

/-- The stored tile: the weighted sum of the values. -/
theorem outTile_ix (u : Fin 1) (p : Fin 256) (e : Fin 1024) :
    outTile x0 x1 x2 x3 x5 x4 (ix3 u p e) = ∑ c : Fin 2048, weightTile x0 x1 x2 x3 x5 (ix2 p c) * x4 (ix3 (0 : Fin 1) c e) := by
  unfold outTile
  refine (shapeCast_ab_1ab_apply _ shapeCasts_S256x1024_S1x256x1024 u p e).trans ?_
  refine (valueProduct_ix _ _ p e).trans ?_
  exact Finset.sum_congr rfl fun k _ => congrArg (weightTile x0 x1 x2 x3 x5 (ix2 p k) * ·)
    (shapeCast_1ab_ab_apply x4 shapeCasts_S1x2048x1024_S2048x1024 k e)

/-- The body's stored value at (u, p, e): the softmax-weighted sum, under row p's energies, of column e of the values. -/
theorem payload_ix (u : Fin 1) (p : Fin 256) (e : Fin 1024) :
    k0_pay1 (F := Ideal) x0 x1 x2 x3 x5 x4 (ix3 u p e)
      = Attn.rowAttend Attn.lowest (fun c : Fin 2048 => energyTile x0 x1 x2 x3 x5 (ix2 p c)) (fun c : Fin 2048 => x4 (ix3 (0 : Fin 1) c e)) := by
  rw [payload_eq, outTile_ix]
  unfold Attn.rowAttend Attn.rowMax
  exact Finset.sum_congr rfl fun c _ => congrArg (· * x4 (ix3 (0 : Fin 1) c e))
    ((weightTile_ix x0 x1 x2 x3 x5 p c).trans
      (congrArg₂ Ideal.div (expTile_ix x0 x1 x2 x3 x5 p c) (Finset.sum_congr rfl fun k _ => expTile_ix x0 x1 x2 x3 x5 p k)))

end

end Cert.KernelIdeal.Tile

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.Whole.lean ====
/-
  From the tiles to the whole array.

  The grid has 4 x 8 points; point t = 8 b + s' works on batch b and on the 256 query rows 256 s' .. 256 s' + 255. It
  reads those rows of q and k, the same rows of the mask, all of v's batch b, and, at every point, the whole stacked
  weight matrix and the whole bias row, which the program prepares beforehand: the stacked matrix has the transpose
  of Wq in its first 1024 rows and the transpose of Wk in its last 1024, so its entry (e, c) is Wq (c, e) and its
  entry (1024 + e, c) is Wk (c, e); the bias row is bq + bk.

  So on the tile the joined row times column c of the stacked matrix is one sum over 2048 = 1024 + 1024 indices whose
  first half is the query's projection and whose second half the key's, and with the summed bias it is the sum of
  the two projections each with its own bias: the tile's energies are the attention energies of rows
  (b, 256 s' + p). The tile stored at point t is therefore the attention output read through the point's block, the
  32 blocks tile the array [4, 2048, 1024], and the array ends holding the attention output.
-/
import proofs.«180164_j28449863369044_2_alg».proof.Proof.Gen.KernelIdeal.Value
import proofs.«180164_j28449863369044_2_alg».proof.Proof.Tile
import proofs.«180164_j28449863369044_2_alg».proof.Proof.LibRowCast
import proofs.«180164_j28449863369044_2_alg».proof.Proof.LibConcatPair
import Idealize.ShloMosaic.Lib.StableHlo.Run
import Idealize.ShloMosaic.Lib.ValueLayout
import Idealize.ShloMosaic.Lib.Pipeline.Value

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays -/

/-- The argument arrays as launched: q, k, v, the mask, the query weights and bias, the key weights and bias. -/
abbrev aq (c : Dev nD) : S4x2048x1024.Idx → EReal := (m ((c : Thread nD τ).loc main_arg0))
abbrev ak (c : Dev nD) : S4x2048x1024.Idx → EReal := (m ((c : Thread nD τ).loc main_arg1))
abbrev av (c : Dev nD) : S4x2048x1024.Idx → EReal := (m ((c : Thread nD τ).loc main_arg2))
abbrev amask (c : Dev nD) : S2048x2048.Idx → EReal := (m ((c : Thread nD τ).loc main_arg3))
abbrev aWq (c : Dev nD) : S2048x1024.Idx → EReal := (m ((c : Thread nD τ).loc main_arg4))
abbrev abq (c : Dev nD) : S2048.Idx → EReal := (m ((c : Thread nD τ).loc main_arg5))
abbrev aWk (c : Dev nD) : S2048x1024.Idx → EReal := (m ((c : Thread nD τ).loc main_arg6))
abbrev abk (c : Dev nD) : S2048.Idx → EReal := (m ((c : Thread nD τ).loc main_arg7))

/-- The attention output of the argument arrays. -/
abbrev G (c : Dev nD) : S4x2048x1024.Idx → EReal :=
  Attn.attend (aq m c) (ak m c) (av m c) (amask m c) (aWq m c) (abq m c) (aWk m c) (abk m c)

/-! ## What the program prepares before the grid -/

/-- The stacked weights: the transposes of Wq and Wk, one on top of the other. -/
theorem stacked_eq (c : Dev nD) :
    (V m c main_v4 : S2048x2048.Idx → EReal) =
      concatenate S2048x2048 0
        [⟨S1024x2048, truncf (F := Ideal) .bf16 (transpose S1024x2048 [1, 0] (aWq m c) transposes_S2048x1024_S1024x2048_1_0) bitsLt_bf16_f32⟩,
         ⟨S1024x2048, truncf (F := Ideal) .bf16 (transpose S1024x2048 [1, 0] (aWk m c) transposes_S2048x1024_S1024x2048_1_0) bitsLt_bf16_f32⟩]
        concatenates_S1024x2048_S1024x2048_S2048x2048_d0 := by
  dsimp only [V, hostOps0]; after_results <;> rfl

/-- Row e of the stacked weights, for e < 1024, is column e of Wq. -/
theorem stacked_query (c : Dev nD) (e : Fin 1024) (q : Fin 2048) :
    (V m c main_v4 : S2048x2048.Idx → EReal) (ix2 ⟨e.val, by omega⟩ q) = aWq m c (ix2 q e) := by
  rw [stacked_eq]
  refine (ConcatPair.concat_rows_upper _ _ concatenates_S1024x2048_S1024x2048_S2048x2048_d0 e q _).trans ?_
  exact transpose_ix2_apply (aWq m c) transposes_S2048x1024_S1024x2048_1_0 e q

/-- Row 1024 + e of the stacked weights is column e of Wk. -/
theorem stacked_key (c : Dev nD) (e : Fin 1024) (q : Fin 2048) :
    (V m c main_v4 : S2048x2048.Idx → EReal) (ix2 ⟨1024 + e.val, by omega⟩ q) = aWk m c (ix2 q e) := by
  rw [stacked_eq]
  refine (ConcatPair.concat_rows_lower _ _ concatenates_S1024x2048_S1024x2048_S2048x2048_d0 e q _).trans ?_
  exact transpose_ix2_apply (aWk m c) transposes_S2048x1024_S1024x2048_1_0 e q

/-- The bias row: bq + bk, written as a row. -/
theorem bias_eq (c : Dev nD) :
    (V m c main_v6 : S1x2048.Idx → EReal)
      = shapeCast S1x2048 (addf (abq m c) (abk m c) : FVec Ideal S2048 .f32) shapeCasts_S2048_S1x2048 := by
  dsimp only [V, hostOps0]; after_results <;> rfl

/-- Entry q of the bias row is bq q + bk q. -/
theorem bias_ix (c : Dev nD) (u : Fin 1) (q : Fin 2048) :
    (V m c main_v6 : S1x2048.Idx → EReal) (ix2 u q) = abq m c (ix1 q) + abk m c (ix1 q) := by
  rw [bias_eq]
  exact RowCast.shapeCast_row_apply (addf (abq m c) (abk m c) : FVec Ideal S2048 .f32) shapeCasts_S2048_S1x2048 u q

/-! ## Which block each window reads at a point -/

/-- The index maps over the 32 points: the query and key windows move with the output's; the stacked weights and
    the bias row stay; the values follow the batch; the mask follows the row tile; the output's block indices are
    the batch (below 4), the row tile (below 8) and 0. -/
theorem idx_facts : ∀ t : Fin cfg0.N,
    win0_0.index t (0 : Fin 3) = win0_6.index t (0 : Fin 3) ∧ win0_0.index t (1 : Fin 3) = win0_6.index t (1 : Fin 3) ∧ win0_0.index t (2 : Fin 3) = 0
    ∧ win0_1.index t (0 : Fin 3) = win0_6.index t (0 : Fin 3) ∧ win0_1.index t (1 : Fin 3) = win0_6.index t (1 : Fin 3) ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = win0_6.index t (0 : Fin 3) ∧ win0_4.index t (1 : Fin 3) = 0 ∧ win0_4.index t (2 : Fin 3) = 0
    ∧ win0_5.index t (0 : Fin 2) = win0_6.index t (1 : Fin 3) ∧ win0_5.index t (1 : Fin 2) = 0
    ∧ win0_6.index t (0 : Fin 3) ≤ 3 ∧ win0_6.index t (1 : Fin 3) ≤ 7 ∧ win0_6.index t (2 : Fin 3) = 0 :=
  (by decide +kernel : ∀ t : Fin grid0.N, _)

/-- Every (batch, row tile) is some point's block. -/
theorem idx_onto : ∀ (q0 : Fin 4) (q1 : Fin 8), ∃ t : Fin cfg0.N, win0_6.index t = ![q0.val, q1.val, 0] :=
  (by decide +kernel : ∀ (q0 : Fin 4) (q1 : Fin 8), ∃ t : Fin grid0.N, win0_6.index t = ![q0.val, q1.val, 0])

section reads

variable (c : Dev nD) (t : Fin cfg0.N)

/-- The query tile's entry (p, e) is q (b, s, e) for the point's batch b and s = 256 s' + p. -/
theorem read_q (p : Fin 256) (e : Fin 1024) (b : Fin 4) (s : Fin 2048)
    (hb : b.val = win0_6.index t (0 : Fin 3)) (hs : s.val = win0_6.index t (1 : Fin 3) * 256 + p.val) :
    iblk m c 0 t (ix3 (0 : Fin 1) p e) = aq m c (ix3 b s e) := by
  show V m c main_arg0 (((cfg0.win 0).blk t).view.emb (ix3 (0 : Fin 1) p e)) = _
  rw [V_main_arg0]
  obtain ⟨f0, f1, f2, -⟩ := idx_facts t
  refine congrArg (aq m c) (funext fun a => Fin.ext ?_)
  match a with
  | ⟨0, _⟩ => show win0_0.index t (0 : Fin 3) * 1 + 1 * (0 : Fin 1).val = b.val; omega
  | ⟨1, _⟩ => show win0_0.index t (1 : Fin 3) * 256 + 1 * p.val = s.val; omega
  | ⟨2, _⟩ => show win0_0.index t (2 : Fin 3) * 1024 + 1 * e.val = e.val; omega

/-- The key tile's entry (p, e) is k (b, s, e). -/
theorem read_k (p : Fin 256) (e : Fin 1024) (b : Fin 4) (s : Fin 2048)
    (hb : b.val = win0_6.index t (0 : Fin 3)) (hs : s.val = win0_6.index t (1 : Fin 3) * 256 + p.val) :
    iblk m c 1 t (ix3 (0 : Fin 1) p e) = ak m c (ix3 b s e) := by
  show V m c main_arg1 (((cfg0.win 1).blk t).view.emb (ix3 (0 : Fin 1) p e)) = _
  rw [V_main_arg1]
  obtain ⟨-, -, -, f0, f1, f2, -⟩ := idx_facts t
  refine congrArg (ak m c) (funext fun a => Fin.ext ?_)
  match a with
  | ⟨0, _⟩ => show win0_1.index t (0 : Fin 3) * 1 + 1 * (0 : Fin 1).val = b.val; omega
  | ⟨1, _⟩ => show win0_1.index t (1 : Fin 3) * 256 + 1 * p.val = s.val; omega
  | ⟨2, _⟩ => show win0_1.index t (2 : Fin 3) * 1024 + 1 * e.val = e.val; omega

/-- The weights' window is the whole stacked matrix. -/
theorem read_w (j q : Fin 2048) : iblk m c 2 t (ix2 j q) = (V m c main_v4 : S2048x2048.Idx → EReal) (ix2 j q) := by
  show V m c main_v4 (((cfg0.win 2).blk t).view.emb (ix2 j q)) = _
  obtain ⟨-, -, -, -, -, -, f0, f1, -⟩ := idx_facts t
  refine congrArg (V m c main_v4 : S2048x2048.Idx → EReal) (funext fun a => Fin.ext ?_)
  match a with
  | ⟨0, _⟩ => show win0_2.index t (0 : Fin 2) * 2048 + 1 * j.val = j.val; omega
  | ⟨1, _⟩ => show win0_2.index t (1 : Fin 2) * 2048 + 1 * q.val = q.val; omega

/-- The bias window is the whole bias row. -/
theorem read_bias (u : Fin 1) (q : Fin 2048) : iblk m c 3 t (ix2 u q) = (V m c main_v6 : S1x2048.Idx → EReal) (ix2 u q) := by
  show V m c main_v6 (((cfg0.win 3).blk t).view.emb (ix2 u q)) = _
  obtain ⟨-, -, -, -, -, -, -, -, f0, f1, -⟩ := idx_facts t
  refine congrArg (V m c main_v6 : S1x2048.Idx → EReal) (funext fun a => Fin.ext ?_)
  match a with
  | ⟨0, _⟩ => show win0_3.index t (0 : Fin 2) * 1 + 1 * u.val = u.val; omega
  | ⟨1, _⟩ => show win0_3.index t (1 : Fin 2) * 2048 + 1 * q.val = q.val; omega

/-- The values' entry (k, e) is v (b, k, e) for the point's batch b. -/
theorem read_v (k : Fin 2048) (e : Fin 1024) (b : Fin 4) (hb : b.val = win0_6.index t (0 : Fin 3)) :
    iblk m c 4 t (ix3 (0 : Fin 1) k e) = av m c (ix3 b k e) := by
  show V m c main_arg2 (((cfg0.win 4).blk t).view.emb (ix3 (0 : Fin 1) k e)) = _
  rw [V_main_arg2]
  obtain ⟨-, -, -, -, -, -, -, -, -, -, f0, f1, f2, -⟩ := idx_facts t
  refine congrArg (av m c) (funext fun a => Fin.ext ?_)
  match a with
  | ⟨0, _⟩ => show win0_4.index t (0 : Fin 3) * 1 + 1 * (0 : Fin 1).val = b.val; omega
  | ⟨1, _⟩ => show win0_4.index t (1 : Fin 3) * 2048 + 1 * k.val = k.val; omega
  | ⟨2, _⟩ => show win0_4.index t (2 : Fin 3) * 1024 + 1 * e.val = e.val; omega

/-- The mask tile's entry (p, q) is mask (s, q) for s = 256 s' + p. -/
theorem read_mask (p : Fin 256) (q : Fin 2048) (s : Fin 2048) (hs : s.val = win0_6.index t (1 : Fin 3) * 256 + p.val) :
    iblk m c 5 t (ix2 p q) = amask m c (ix2 s q) := by
  show V m c main_arg3 (((cfg0.win 5).blk t).view.emb (ix2 p q)) = _
  rw [V_main_arg3]
  obtain ⟨-, -, -, -, -, -, -, -, -, -, -, -, -, f0, f1, -⟩ := idx_facts t
  refine congrArg (amask m c) (funext fun a => Fin.ext ?_)
  match a with
  | ⟨0, _⟩ => show win0_5.index t (0 : Fin 2) * 256 + 1 * p.val = s.val; omega
  | ⟨1, _⟩ => show win0_5.index t (1 : Fin 2) * 2048 + 1 * q.val = q.val; omega

/-- The tile's energies are the attention energies of its rows: the joined row against the stacked weights is
    the query's projection plus the key's, and the summed bias is the two biases. -/
theorem tile_energy (p : Fin 256) (b : Fin 4) (s : Fin 2048)
    (hb : b.val = win0_6.index t (0 : Fin 3)) (hs : s.val = win0_6.index t (1 : Fin 3) * 256 + p.val) (q : Fin 2048) :
    Tile.energyTile (iblk m c 0 t) (iblk m c 1 t) (iblk m c 2 t) (iblk m c 3 t) (iblk m c 5 t) (ix2 p q)
      = Attn.energy (aq m c) (ak m c) (amask m c) (aWq m c) (abq m c) (aWk m c) (abk m c) b s q := by
  refine (Tile.energyTile_ix (iblk m c 0 t) (iblk m c 1 t) (iblk m c 2 t) (iblk m c 3 t) (iblk m c 5 t) p q).trans ?_
  refine Attn.energy_fused (aq m c) (ak m c) (amask m c) (aWq m c) (abq m c) (aWk m c) (abk m c) b s q
    (fun j : Fin 2048 => Tile.qkTile (iblk m c 0 t) (iblk m c 1 t) (ix2 p j) * iblk m c 2 t (ix2 j q))
    (iblk m c 3 t (ix2 (0 : Fin 1) q)) (iblk m c 5 t (ix2 p q)) ?_ ?_ ?_ ?_
  · intro e
    exact congrArg₂ (· * ·)
      ((Tile.qkTile_query (iblk m c 0 t) (iblk m c 1 t) p e).trans (read_q m c t p e b s hb hs))
      ((read_w m c t ⟨e.val, by omega⟩ q).trans (stacked_query m c e q))
  · intro e
    exact congrArg₂ (· * ·)
      ((Tile.qkTile_key (iblk m c 0 t) (iblk m c 1 t) p e).trans (read_k m c t p e b s hb hs))
      ((read_w m c t ⟨1024 + e.val, by omega⟩ q).trans (stacked_key m c e q))
  · exact (read_bias m c t 0 q).trans (bias_ix m c 0 q)
  · exact read_mask m c t p q s hs

end reads

/-! ## What a point writes back, and the whole array -/

theorem zero3 : (![0, 0, 0] : Fin 3 → Nat) = fun _ => 0 := funext fun a => by fin_cases a <;> rfl
theorem zero2 : (![0, 0] : Fin 2 → Nat) = fun _ => 0 := funext fun a => by fin_cases a <;> rfl

/-- What point t writes back is the attention output read through its block. -/
theorem flushed_eq (c : Dev nD) (t : Fin cfg0.N) :
    (dats m 0 c).flushed 6 t = ((cfg0.win 6).blk t).view.read (Elt Ideal) (G m c) := by
  rw [Value.flushed6]
  unfold out0_6
  rw [View.canon_unit_zero zero3]
  simp only [View.ld_unit_zero (S := S1x256x1024) zero3, View.ld_unit_zero (S := S2048x2048) zero2,
    View.ld_unit_zero (S := S1x2048) zero2, View.ld_unit_zero (S := S256x2048) zero2, View.ld_unit_zero (S := S1x2048x1024) zero3]
  funext j
  obtain ⟨u, p, e, rfl⟩ : ∃ (u : Fin 1) (p : Fin 256) (e : Fin 1024), j = (ix3 u p e : S1x256x1024.Idx) :=
    ⟨j 0, j 1, j 2, eq_ix3 (n0 := 1) (n1 := 256) (n2 := 1024) j⟩
  obtain ⟨-, -, -, -, -, -, -, -, -, -, -, -, -, -, -, g0, g1, g2⟩ := idx_facts t
  have hu : u.val = 0 := by omega
  -- the batch and the query position this entry of the block belongs to
  obtain ⟨b, hb⟩ : ∃ b : Fin 4, b.val = win0_6.index t (0 : Fin 3) := ⟨⟨win0_6.index t (0 : Fin 3), by omega⟩, rfl⟩
  obtain ⟨s, hs⟩ : ∃ s : Fin 2048, s.val = win0_6.index t (1 : Fin 3) * 256 + p.val :=
    ⟨⟨win0_6.index t (1 : Fin 3) * 256 + p.val, by omega⟩, rfl⟩
  have hemb : ((cfg0.win 6).blk t).view.emb (ix3 u p e : S1x256x1024.Idx) = (ix3 b s e : S4x2048x1024.Idx) :=
    funext fun a => Fin.ext (by
      match a with
      | ⟨0, _⟩ => show win0_6.index t (0 : Fin 3) * 1 + 1 * u.val = b.val; omega
      | ⟨1, _⟩ => show win0_6.index t (1 : Fin 3) * 256 + 1 * p.val = s.val; omega
      | ⟨2, _⟩ => show win0_6.index t (2 : Fin 3) * 1024 + 1 * e.val = e.val; omega)
  show k0_pay1 (F := Ideal) (iblk m c 0 t) (iblk m c 1 t) (iblk m c 2 t) (iblk m c 3 t) (iblk m c 5 t) (iblk m c 4 t) (ix3 u p e)
      = G m c (((cfg0.win 6).blk t).view.emb (ix3 u p e : S1x256x1024.Idx))
  rw [hemb]
  refine (Tile.payload_ix (iblk m c 0 t) (iblk m c 1 t) (iblk m c 2 t) (iblk m c 3 t) (iblk m c 5 t) (iblk m c 4 t) u p e).trans ?_
  refine (Attn.rowAttend_congr Attn.lowest
    (fun q => tile_energy m c t p b s hb hs q)
    (fun q => read_v m c t q e b hb)).trans ?_
  exact (Attn.attend_ix3 (aq m c) (ak m c) (av m c) (amask m c) (aWq m c) (abq m c) (aWk m c) (abk m c) b s e).symm

/-- An index is in point t's block iff each coordinate is in the block's range on its axis. -/
theorem mem_blk (t : Fin cfg0.N) (i : S4x2048x1024.Idx) :
    i ∈ ((cfg0.win 6).blk t).view.set ↔ ∀ a : Fin 3, win0_6.index t a * S1x256x1024.size a ≤ (i a).val
      ∧ (i a).val < win0_6.index t a * S1x256x1024.size a + S1x256x1024.size a := by
  show i ∈ ((View.whole main_v7).slice (win0_6.rect t)).set ↔ _
  rw [View.set_slice_whole, Rect.mem_set_unit]
  exact Iff.rfl

/-- Every index of the array is in some point's block: batch i 0, row tile (i 1) / 256. -/
theorem cover (i : S4x2048x1024.Idx) :
    ∃ t : Fin cfg0.N, (cfg0.win 6).flush t = true ∧ i ∈ ((cfg0.win 6).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win0_6.index t (0 : Fin 3) = (i 0).val := congrFun ht 0
  have q1 : win0_6.index t (1 : Fin 3) = (i 1).val / 256 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 1024 ≤ (i 2).val ∧ (i 2).val < win0_6.index t (2 : Fin 3) * 1024 + 1024; omega

/-- The array after the run is the attention output of the argument arrays. -/
theorem final (c : Dev nD) : (dats m 0 c).arrAt 6 cfg0.N = G m c :=
  (dats m 0 c).arrAt_eq_of_cover 6 (G m c) (fun t _ => flushed_eq m c t) cover

/-- The kernel's run: the result array ends at the attention output of the argument arrays, the arguments unchanged. -/
theorem run : θ_run defs (onTc (τ := τ) (main (F := Ideal))) ⟨m, fun _ => 0, ρ⟩ fun r => ∀ c : Dev nD,
      r.2.mem ((c : Thread nD τ).loc main_v7) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.Reference.lean ====
/-
  The reference computes the attention output.

  Read one operation at a time, the reference's result at (b, s, e) is the sum over the context positions c of
  weight (b, s, c) * v (b, c, e), where weight is the quotient of exp (energy - M) by the sum of those exponentials
  along c, M is the maximum of the energies of row (b, s), and

      energy (b, s, c) = tanh ((sum over e of q (b, s, e) * Wq (c, e) + bq c) + (sum over e of k (b, s, e) * Wk (c, e) + bk c)) + mask (s, c).

  The maximum is taken twice: a reduction of the row by max starting from the value of minus infinity, and then the
  max of that same starting value with the result. A fold of max lies above the value it starts from, so the second
  max changes nothing. The sum of the exponentials starts from zero, which adds nothing.
-/
import proofs.«180164_j28449863369044_2_alg».proof.Proof.Gen.ReferenceIdeal.Read
import proofs.«180164_j28449863369044_2_alg».proof.Proof.Attention
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-! ## Where each operation reads its operands, by coordinates -/

theorem lidx_proj_q (b : Fin 4) (s c : Fin 2048) (k : Fin 1024) : lidx_main_v0 (ix3 b s c) k = ix3 b s k :=
  funext fun a => Fin.ext (by match a with | ⟨0, _⟩ => rfl | ⟨1, _⟩ => rfl | ⟨2, _⟩ => rfl)
theorem ridx_proj_q (b : Fin 4) (s c : Fin 2048) (k : Fin 1024) : ridx_main_v0 (ix3 b s c) k = ix2 c k :=
  funext fun a => Fin.ext (by match a with | ⟨0, _⟩ => rfl | ⟨1, _⟩ => rfl)
theorem idx_bias_q (b : Fin 4) (s c : Fin 2048) : idx_main_v1 (idx_main_v2 (ix3 b s c)) = ix1 c :=
  funext fun a => Fin.ext (by match a with | ⟨0, _⟩ => rfl)
theorem lidx_proj_k (b : Fin 4) (s c : Fin 2048) (k : Fin 1024) : lidx_main_v4 (ix3 b s c) k = ix3 b s k :=
  funext fun a => Fin.ext (by match a with | ⟨0, _⟩ => rfl | ⟨1, _⟩ => rfl | ⟨2, _⟩ => rfl)
theorem ridx_proj_k (b : Fin 4) (s c : Fin 2048) (k : Fin 1024) : ridx_main_v4 (ix3 b s c) k = ix2 c k :=
  funext fun a => Fin.ext (by match a with | ⟨0, _⟩ => rfl | ⟨1, _⟩ => rfl)
theorem idx_bias_k (b : Fin 4) (s c : Fin 2048) : idx_main_v5 (idx_main_v6 (ix3 b s c)) = ix1 c :=
  funext fun a => Fin.ext (by match a with | ⟨0, _⟩ => rfl)
theorem idx_mask (b : Fin 4) (s c : Fin 2048) : idx_main_v10 (idx_main_v11 (ix3 b s c)) = ix2 s c :=
  funext fun a => Fin.ext (by match a with | ⟨0, _⟩ => rfl | ⟨1, _⟩ => rfl)
theorem idx_rowmax (b : Fin 4) (s c : Fin 2048) : idx_main_v16 (idx_main_v17 (ix3 b s c)) = ix2 b s :=
  funext fun a => Fin.ext (by match a with | ⟨0, _⟩ => rfl | ⟨1, _⟩ => rfl)
theorem idx_expsum (b : Fin 4) (s : Fin 2048) (k : Fin 2048) : idx_main_v20 (ix2 b s) k = ix3 b s k :=
  funext fun a => Fin.ext (by match a with | ⟨0, _⟩ => rfl | ⟨1, _⟩ => rfl | ⟨2, _⟩ => rfl)
theorem idx_rowsum (b : Fin 4) (s c : Fin 2048) : idx_main_v21 (idx_main_v22 (ix3 b s c)) = ix2 b s :=
  funext fun a => Fin.ext (by match a with | ⟨0, _⟩ => rfl | ⟨1, _⟩ => rfl)
theorem lidx_out (b : Fin 4) (s : Fin 2048) (e : Fin 1024) (k : Fin 2048) : lidx_main_v24 (ix3 b s e) k = ix3 b s k :=
  funext fun a => Fin.ext (by match a with | ⟨0, _⟩ => rfl | ⟨1, _⟩ => rfl | ⟨2, _⟩ => rfl)
theorem ridx_out (b : Fin 4) (s : Fin 2048) (e : Fin 1024) (k : Fin 2048) : ridx_main_v24 (ix3 b s e) k = ix3 b k e :=
  funext fun a => Fin.ext (by match a with | ⟨0, _⟩ => rfl | ⟨1, _⟩ => rfl | ⟨2, _⟩ => rfl)

/-- The row reduction drops the last axis of [4, 2048, 2048]. -/
theorem red : S4x2048x2048.Reduces [2] S4x2048 := by decide
/-- Position k of row (b, s) is the index (b, s, k). -/
theorem lift_row (b : Fin 4) (s : Fin 2048) (k : Fin 2048) : red.lift (ix2 b s) k = ix3 b s k :=
  funext fun a => Fin.ext (by match a with | ⟨0, _⟩ => rfl | ⟨1, _⟩ => rfl | ⟨2, _⟩ => rfl)

section

variable (x0 x1 x2 : (⟨S4x2048x1024, .f32⟩ : BufTy).Contents (Elt Ideal)) (x3 : (⟨S2048x2048, .f32⟩ : BufTy).Contents (Elt Ideal))
  (x4 : (⟨S2048x1024, .f32⟩ : BufTy).Contents (Elt Ideal)) (x5 : (⟨S2048, .f32⟩ : BufTy).Contents (Elt Ideal))
  (x6 : (⟨S2048x1024, .f32⟩ : BufTy).Contents (Elt Ideal)) (x7 : (⟨S2048, .f32⟩ : BufTy).Contents (Elt Ideal))

/-! ## The energies -/

/-- The query's projection with its bias. -/
theorem proj_q_ix (b : Fin 4) (s c : Fin 2048) :
    val_main_v3 (F := Ideal) x0 x4 x5 (ix3 b s c) = (∑ e : Fin 1024, x0 (ix3 b s e) * x4 (ix2 c e)) + x5 (ix1 c) := by
  rw [val_main_v3_apply, val_main_v0_apply, val_main_v2_apply, val_main_v1_apply]
  exact congrArg₂ (· + ·)
    (Finset.sum_congr rfl fun k _ => congrArg₂ (· * ·) (congrArg x0 (lidx_proj_q b s c k)) (congrArg x4 (ridx_proj_q b s c k)))
    (congrArg x5 (idx_bias_q b s c))

/-- The key's projection with its bias. -/
theorem proj_k_ix (b : Fin 4) (s c : Fin 2048) :
    val_main_v7 (F := Ideal) x1 x6 x7 (ix3 b s c) = (∑ e : Fin 1024, x1 (ix3 b s e) * x6 (ix2 c e)) + x7 (ix1 c) := by
  rw [val_main_v7_apply, val_main_v4_apply, val_main_v6_apply, val_main_v5_apply]
  exact congrArg₂ (· + ·)
    (Finset.sum_congr rfl fun k _ => congrArg₂ (· * ·) (congrArg x1 (lidx_proj_k b s c k)) (congrArg x6 (ridx_proj_k b s c k)))
    (congrArg x7 (idx_bias_k b s c))

/-- The mask, repeated over the batches. -/
theorem mask_ix (b : Fin 4) (s c : Fin 2048) : val_main_v11 (F := Ideal) x3 (ix3 b s c) = x3 (ix2 s c) := by
  rw [val_main_v11_apply, val_main_v10_apply]
  exact congrArg x3 (idx_mask b s c)

/-- The energies: tanh of the two projections' sum, plus the mask. -/
theorem energy_ix (b : Fin 4) (s c : Fin 2048) :
    val_main_v12 (F := Ideal) x0 x1 x3 x4 x5 x6 x7 (ix3 b s c) = Attn.energy x0 x1 x3 x4 x5 x6 x7 b s c := by
  rw [val_main_v12_apply, val_main_v9_apply, val_main_v8_apply, proj_q_ix, proj_k_ix, mask_ix]
  rfl

/-! ## The row maximum -/

/-- The reduction by max along the last axis is the fold of max over the row, from the starting value. -/
theorem rowred_ix (b : Fin 4) (s : Fin 2048) :
    val_main_v13 (F := Ideal) x0 x1 x3 x4 x5 x6 x7 (ix2 b s) = Attn.rowMax Attn.lowest (Attn.energy x0 x1 x3 x4 x5 x6 x7 b s) := by
  unfold val_main_v13
  refine (Host.reduce_eq_fold_single FloatOps.maximumf _ _ reducesTo_S4x2048x2048_S4x2048_d2 red h_S_ (ix2 b s)).trans ?_
  have hf : (val_main_v12 (F := Ideal) x0 x1 x3 x4 x5 x6 x7 ∘ red.lift (ix2 b s)) = Attn.energy x0 x1 x3 x4 x5 x6 x7 b s :=
    funext fun k => (congrArg (val_main_v12 (F := Ideal) x0 x1 x3 x4 x5 x6 x7) (lift_row b s k)).trans (energy_ix x0 x1 x3 x4 x5 x6 x7 b s k)
  rw [hf]
  rfl

/-- Taking the max with the starting value once more changes nothing. -/
theorem rowmax_ix (b : Fin 4) (s : Fin 2048) :
    val_main_v15 (F := Ideal) x0 x1 x3 x4 x5 x6 x7 (ix2 b s) = Attn.rowMax Attn.lowest (Attn.energy x0 x1 x3 x4 x5 x6 x7 b s) := by
  rw [val_main_v15_apply, rowred_ix, val_main_v14_apply]
  exact Attn.max_rowMax Attn.lowest _

/-- The row maximum, repeated along the row. -/
theorem rowmax_bc_ix (b : Fin 4) (s c : Fin 2048) :
    val_main_v17 (F := Ideal) x0 x1 x3 x4 x5 x6 x7 (ix3 b s c) = Attn.rowMax Attn.lowest (Attn.energy x0 x1 x3 x4 x5 x6 x7 b s) := by
  rw [val_main_v17_apply, val_main_v16_apply]
  exact (congrArg (val_main_v15 (F := Ideal) x0 x1 x3 x4 x5 x6 x7) (idx_rowmax b s c)).trans (rowmax_ix x0 x1 x3 x4 x5 x6 x7 b s)

/-! ## The weights -/

/-- The exponentials of the energies less the row maximum. -/
theorem exp_ix (b : Fin 4) (s c : Fin 2048) :
    val_main_v19 (F := Ideal) x0 x1 x3 x4 x5 x6 x7 (ix3 b s c)
      = Ideal.exp (Attn.energy x0 x1 x3 x4 x5 x6 x7 b s c - Attn.rowMax Attn.lowest (Attn.energy x0 x1 x3 x4 x5 x6 x7 b s)) := by
  rw [val_main_v19_apply, val_main_v18_apply, energy_ix, rowmax_bc_ix]
  rfl

/-- Their sum along the row: it starts from zero. -/
theorem expsum_ix (b : Fin 4) (s : Fin 2048) :
    val_main_v20 (F := Ideal) x0 x1 x3 x4 x5 x6 x7 (ix2 b s)
      = ∑ c : Fin 2048, Ideal.exp (Attn.energy x0 x1 x3 x4 x5 x6 x7 b s c - Attn.rowMax Attn.lowest (Attn.energy x0 x1 x3 x4 x5 x6 x7 b s)) := by
  rw [val_main_v20_apply]
  have h0 : (val_main_cst_1 (F := Ideal)) (Shape.Idx.first h_S_) = 0 := Ideal.ofBits_zero_f32
  rw [h0, zero_add]
  exact Finset.sum_congr rfl fun k _ =>
    (congrArg (val_main_v19 (F := Ideal) x0 x1 x3 x4 x5 x6 x7) (idx_expsum b s k)).trans (exp_ix x0 x1 x3 x4 x5 x6 x7 b s k)

/-- The sum, repeated along the row. -/
theorem expsum_bc_ix (b : Fin 4) (s c : Fin 2048) :
    val_main_v22 (F := Ideal) x0 x1 x3 x4 x5 x6 x7 (ix3 b s c)
      = ∑ c' : Fin 2048, Ideal.exp (Attn.energy x0 x1 x3 x4 x5 x6 x7 b s c' - Attn.rowMax Attn.lowest (Attn.energy x0 x1 x3 x4 x5 x6 x7 b s)) := by
  rw [val_main_v22_apply, val_main_v21_apply]
  exact (congrArg (val_main_v20 (F := Ideal) x0 x1 x3 x4 x5 x6 x7) (idx_rowsum b s c)).trans (expsum_ix x0 x1 x3 x4 x5 x6 x7 b s)

/-- The weights: each exponential divided by the row's sum. -/
theorem weight_ix (b : Fin 4) (s c : Fin 2048) :
    val_main_v23 (F := Ideal) x0 x1 x3 x4 x5 x6 x7 (ix3 b s c)
      = Ideal.div (Ideal.exp (Attn.energy x0 x1 x3 x4 x5 x6 x7 b s c - Attn.rowMax Attn.lowest (Attn.energy x0 x1 x3 x4 x5 x6 x7 b s)))
          (∑ c' : Fin 2048, Ideal.exp (Attn.energy x0 x1 x3 x4 x5 x6 x7 b s c' - Attn.rowMax Attn.lowest (Attn.energy x0 x1 x3 x4 x5 x6 x7 b s))) := by
  rw [val_main_v23_apply, exp_ix, expsum_bc_ix]
  rfl

/-! ## The output -/

/-- The weighted sum of the values: the reference's result is the attention output, index by index. -/
theorem out_ix (b : Fin 4) (s : Fin 2048) (e : Fin 1024) :
    val_main_v24 (F := Ideal) x0 x1 x2 x3 x4 x5 x6 x7 (ix3 b s e) = Attn.attend x0 x1 x2 x3 x4 x5 x6 x7 (ix3 b s e) := by
  rw [val_main_v24_apply, Attn.attend_ix3]
  unfold Attn.rowAttend
  exact Finset.sum_congr rfl fun k _ => congrArg₂ (· * ·)
    ((congrArg (val_main_v23 (F := Ideal) x0 x1 x3 x4 x5 x6 x7) (lidx_out b s e k)).trans (weight_ix x0 x1 x3 x4 x5 x6 x7 b s k))
    (congrArg x2 (ridx_out b s e k))

theorem out_eq : val_main_v24 (F := Ideal) x0 x1 x2 x3 x4 x5 x6 x7 = Attn.attend x0 x1 x2 x3 x4 x5 x6 x7 := by
  funext i
  obtain ⟨b, s, e, rfl⟩ : ∃ (b : Fin 4) (s : Fin 2048) (e : Fin 1024), i = ix3 b s e := ⟨i 0, i 1, i 2, eq_ix3 i⟩
  exact out_ix x0 x1 x2 x3 x4 x5 x6 x7 b s e

end

/-- The reference's result, as its run names it, is the attention output of the argument arrays. -/
theorem res_eq (m : (ℓ : Loc nD τ sig) → Buf (Elt Ideal) ℓ) (c : Dev nD) :
    Cert.ReferenceIdeal.Value.res_main_v24 m c
      = Attn.attend (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) :=
  (val_main_v24_eq m c).trans (out_eq _ _ _ _ _ _ _ _)

end Cert.ReferenceIdeal.RefValue

end
-- ==== Proof.lean ====
/-
  Additive attention: a tiled kernel against its plain reference, on the extended reals.

  Both programs compute, for every batch b, query position s and output column e,

      out (b, s, e) = sum over c of softmax over c of energy (b, s, c), times v (b, c, e),
      energy (b, s, c) = tanh ((q (b, s, .) . Wq (c, .) + bq c) + (k (b, s, .) . Wk (c, .) + bk c)) + mask (s, c).

  The reference computes the two projections separately. The kernel works on tiles of 256 query positions of one
  batch and computes both projections as ONE product: each query row followed by its key row, against the transposes
  of Wq and Wk stacked one on top of the other, with bq + bk added as one row. A sum over 2048 = 1024 + 1024 indices
  is the sum of its two halves, and (A + B) + (x + y) = (A + x) + (B + y): the two energies are the same extended
  real, by commutativity and associativity of addition alone, so the inputs' finiteness is not used. From the
  energies on, both programs do the same thing: the row maximum (the reference takes the max with its starting
  value once more, which changes nothing), the exponentials, their sum, the quotient, and the product with v. A
  change of float format is the identity here.

  Proof/Attention.lean states the output as one function of the eight arrays and proves the law; Proof/Reference.lean
  reads the reference's run as that function; Proof/Tile.lean reads the kernel's body on a tile, Proof/Whole.lean the
  tiles' blocks and the whole array; here the claims are assembled. The kernel's idealization rewrote nothing, so it
  has nothing to preserve beyond its own text.
-/
import proofs.«180164_j28449863369044_2_alg».proof.Defs
import proofs.«180164_j28449863369044_2_alg».proof.Proof.Gen.Kernel
import proofs.«180164_j28449863369044_2_alg».proof.Proof.Gen.Kernel.Skeleton
import proofs.«180164_j28449863369044_2_alg».proof.Proof.Gen.Kernel.Launch
import proofs.«180164_j28449863369044_2_alg».proof.Proof.Gen.Kernel.Points
import proofs.«180164_j28449863369044_2_alg».proof.Proof.Gen.Kernel.Frame
import proofs.«180164_j28449863369044_2_alg».proof.Proof.Gen.KernelIdeal
import proofs.«180164_j28449863369044_2_alg».proof.Proof.Gen.KernelIdeal.Skeleton
import proofs.«180164_j28449863369044_2_alg».proof.Proof.Gen.KernelIdeal.Launch
import proofs.«180164_j28449863369044_2_alg».proof.Proof.Gen.KernelIdeal.Points
import proofs.«180164_j28449863369044_2_alg».proof.Proof.Gen.KernelIdeal.Frame
import proofs.«180164_j28449863369044_2_alg».proof.Proof.Gen.ReferenceIdeal
import proofs.«180164_j28449863369044_2_alg».proof.Proof.Gen.Pre_finite_inputs
import proofs.«180164_j28449863369044_2_alg».proof.Proof.Gen.KernelIdeal.Value
import proofs.«180164_j28449863369044_2_alg».proof.Proof.Gen.ReferenceIdeal.Run
import proofs.«180164_j28449863369044_2_alg».proof.Proof.Gen.ReferenceIdeal.Read
import proofs.«180164_j28449863369044_2_alg».proof.Proof.Whole
import proofs.«180164_j28449863369044_2_alg».proof.Proof.Reference
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array and the reference's both end at the attention output of
    those arguments. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.RefValue.res_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
